-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x32x32 : Shape := ⟨4, ![256, 128, 32, 32]⟩
abbrev S8x8 : Shape := ⟨2, ![8, 8]⟩
abbrev S8 : Shape := ⟨1, ![8]⟩
abbrev S_ : Shape := ⟨0, ![]⟩

class Facts : Prop where
  bcast_S_S256x128x32x32 : S_.BroadcastsInDim S256x128x32x32 (![] : Fin 0 → Fin S256x128x32x32.rank)
  reducesTo_S256x128x32x32_S_d0_1_2_3 : S256x128x32x32.ReducesTo [0, 1, 2, 3] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S256x128x32x32 .f32) (main_arg1 : FVec F S8x8 .f32) (main_arg2 : FVec F S8 .f32) : IVec S_ 1 :=
  let main_v0 : FVec F S256x128x32x32 .f32 := Host.absf main_arg0
  let main_cst : FVec F S_ .f32 := constant S_ .f32 0x7F800000#32
  let main_v1 : FVec F S256x128x32x32 .f32 := broadcastInDim S256x128x32x32 ![] bcast_S_S256x128x32x32 main_cst
  let main_v2 : IVec S256x128x32x32 1 := cmpf .olt main_v0 main_v1
  let main_c : IVec S_ 1 := constantI S_ 1 1#1
  let main_v3 : IVec S_ 1 := (fun x v => Host.reduce IntOp.andi x v reducesTo_S256x128x32x32_S_d0_1_2_3 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S256x128x32x32 : Shape := ⟨4, ![256, 128, 32, 32]⟩
abbrev S8x8 : Shape := ⟨2, ![8, 8]⟩
abbrev S8 : Shape := ⟨1, ![8]⟩
abbrev S262144x128 : Shape := ⟨2, ![262144, 128]⟩
abbrev S16x16 : Shape := ⟨2, ![16, 16]⟩
abbrev S_ : Shape := ⟨0, ![]⟩
abbrev S16x1x16x1 : Shape := ⟨4, ![16, 1, 16, 1]⟩
abbrev S1x8x1x8 : Shape := ⟨4, ![1, 8, 1, 8]⟩
abbrev S16x8x16x8 : Shape := ⟨4, ![16, 8, 16, 8]⟩
abbrev S128x128 : Shape := ⟨2, ![128, 128]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S16384x128 : Shape := ⟨2, ![16384, 128]⟩

abbrev nBuf : Space → Nat
  | .hbm => 24
  | .vmem => 6
  | .smem => 0
  | _ => 0

abbrev bufTy : (tb : Table) → Fin (tcTables nBuf tb) → BufTy
  | .hbm, ⟨0, _⟩ => ⟨S256x128x32x32, .f32⟩
  | .hbm, ⟨1, _⟩ => ⟨S8x8, .f32⟩
  | .hbm, ⟨2, _⟩ => ⟨S8, .f32⟩
  | .hbm, ⟨3, _⟩ => ⟨S262144x128, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S16x16, .f32⟩
  | .hbm, ⟨11, _⟩ => ⟨S8x8, .f32⟩
  | .hbm, ⟨12, _⟩ => ⟨S16x1x16x1, .f32⟩
  | .hbm, ⟨13, _⟩ => ⟨S1x8x1x8, .f32⟩
  | .hbm, ⟨14, _⟩ => ⟨S16x8x16x8, .f32⟩
  | .hbm, ⟨15, _⟩ => ⟨S16x8x16x8, .f32⟩
  | .hbm, ⟨16, _⟩ => ⟨S16x8x16x8, .f32⟩
  | .hbm, ⟨17, _⟩ => ⟨S128x128, .f32⟩
  | .hbm, ⟨18, _⟩ => ⟨S1x8, .f32⟩
  | .hbm, ⟨19, _⟩ => ⟨S16x8, .f32⟩
  | .hbm, ⟨20, _⟩ => ⟨S128, .f32⟩
  | .hbm, ⟨21, _⟩ => ⟨S1x128, .f32⟩
  | .hbm, ⟨22, _⟩ => ⟨S262144x128, .f32⟩
  | .hbm, ⟨23, _⟩ => ⟨S256x128x32x32, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S16384x128, .f32⟩
  | .local _ .vmem, ⟨5, _⟩ => ⟨S16384x128, .f32⟩
  | _, _ => ⟨S256x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x128x32x32_S262144x128 : S256x128x32x32.ShapeCasts S262144x128
  bcast_S_S16x16 : S_.BroadcastsInDim S16x16 (![] : Fin 0 → Fin S16x16.rank)
  transposes_S8x8_S8x8_1_0 : S8x8.Transposes [1, 0] S8x8
  bcast_S16x16_S16x1x16x1_0_2 : S16x16.BroadcastsInDim S16x1x16x1 (![0, 2] : Fin 2 → Fin S16x1x16x1.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  shapeCasts_S128_S1x128 : S128.ShapeCasts S1x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S262144x128_S256x128x32x32 : S262144x128.ShapeCasts S256x128x32x32
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S262144x128.size a
  hwx0_3 : ∀ i : grid0.Coords, EltTy.bits .f32 = 32 ∨ (Rect.block (s := S262144x128) S16384x128.size (cc0_transform_3 i) (hinb0_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128x32x32 : Shape := ⟨4, ![256, 128, 32, 32]⟩
abbrev S8x8 : Shape := ⟨2, ![8, 8]⟩
abbrev S8 : Shape := ⟨1, ![8]⟩
abbrev S256x128x32x4x8 : Shape := ⟨5, ![256, 128, 32, 4, 8]⟩
abbrev S1x1x1x1x8 : Shape := ⟨5, ![1, 1, 1, 1, 8]⟩

abbrev nBuf : Space → Nat
  | .hbm => 9
  | .vmem => 0
  | .smem => 0
  | _ => 0

abbrev bufTy : (tb : Table) → Fin (tcTables nBuf tb) → BufTy
  | .hbm, ⟨0, _⟩ => ⟨S256x128x32x32, .f32⟩
  | .hbm, ⟨1, _⟩ => ⟨S8x8, .f32⟩
  | .hbm, ⟨2, _⟩ => ⟨S8, .f32⟩
  | .hbm, ⟨3, _⟩ => ⟨S256x128x32x4x8, .f32⟩
  | .hbm, ⟨4, _⟩ => ⟨S256x128x32x4x8, .f32⟩
  | .hbm, ⟨5, _⟩ => ⟨S1x1x1x1x8, .f32⟩
  | .hbm, ⟨6, _⟩ => ⟨S256x128x32x4x8, .f32⟩
  | .hbm, ⟨7, _⟩ => ⟨S256x128x32x4x8, .f32⟩
  | .hbm, ⟨8, _⟩ => ⟨S256x128x32x32, .f32⟩
  | _, _ => ⟨S256x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S256x128x32x32_S256x128x32x4x8 : S256x128x32x32.ShapeCasts S256x128x32x4x8
  bcast_S8_S1x1x1x1x8_4 : S8.BroadcastsInDim S1x1x1x1x8 (![4] : Fin 1 → Fin S1x1x1x1x8.rank)
  bcast_S1x1x1x1x8_S256x128x32x4x8_0_1_2_3_4 : S1x1x1x1x8.BroadcastsInDim S256x128x32x4x8 (![0, 1, 2, 3, 4] : Fin 5 → Fin S256x128x32x4x8.rank)
  shapeCasts_S256x128x32x4x8_S256x128x32x32 : S256x128x32x4x8.ShapeCasts S256x128x32x32
  dot_S256x128x32x4x8_S8x8_S256x128x32x4x8_4_1_0123_0_n_n_wf : DotDims.WF S256x128x32x4x8 S8x8 S256x128x32x4x8 [4] [1] [0, 1, 2, 3] [0] [] []

variable [Facts₀]

def dot_S256x128x32x4x8_S8x8_S256x128x32x4x8_4_1_0123_0_n_n : DotDims S256x128x32x4x8 S8x8 S256x128x32x4x8 where
  lhsContracting := [4]
  rhsContracting := [1]
  lhsNonContracting := [0, 1, 2, 3]
  rhsNonContracting := [0]
  lhsBatch := []
  rhsBatch := []
  wf := dot_S256x128x32x4x8_S8x8_S256x128x32x4x8_4_1_0123_0_n_n_wf

class Facts : Prop extends Facts₀ where

variable [Facts]
-- ==== Proof.GroupLinear.lean ====
/-
  The function both programs compute, and the one law of sums that joins their two arrangements.

  The array x has shape [256, 128, 32, 32]; its last axis is cut into four groups of eight consecutive entries.
  Every group is sent through the same affine map: the entry at position l of the last axis, which sits in group
  l / 8 at place l % 8, becomes

      Σ_{a < 8} x[.., 8·(l / 8) + a] · w[l % 8, a]  +  b[l % 8].

  One program computes this directly, group by group. The other lays 128 consecutive entries of x side by side in a
  row, and multiplies the row by a 128 × 128 matrix that carries sixteen copies of wᵀ down its diagonal and zeros
  elsewhere, each entry of that matrix being the product of a 0/1 indicator and an entry of w. A sum over the 128
  columns of such a row then keeps only the eight terms of one diagonal block: the indicator is 0 off the block, and
  0 · w = 0 and x · 0 = 0 hold for every extended real, so nothing about finiteness is used.
-/
import Idealize.ShloMosaic.PureOps.Ideal
import Idealize.ShloMosaic.Lib.ValueIdx

noncomputable section

namespace Cert.GroupLinear

open Idealize.ShloMosaic Idealize.ShloMosaic.ValueIdx

/-- The result at position (p, q, h, l): the group of eight entries of x that holds l, against row l % 8 of w,
    plus entry l % 8 of b. -/
def entry (x : (⟨4, ![256, 128, 32, 32]⟩ : Shape).Idx → EReal) (w : (⟨2, ![8, 8]⟩ : Shape).Idx → EReal)
    (b : (⟨1, ![8]⟩ : Shape).Idx → EReal) (p : Fin 256) (q : Fin 128) (h : Fin 32) (l : Fin 32) : EReal :=
  (∑ a : Fin 8, x (ix4 p q h ⟨8 * (l.val / 8) + a.val, by have := l.isLt; have := a.isLt; omega⟩)
      * w (ix2 ⟨l.val % 8, Nat.mod_lt _ (by decide)⟩ a))
    + b (ix1 ⟨l.val % 8, Nat.mod_lt _ (by decide)⟩)

/-- The whole result array. -/
def groupLinear (x : (⟨4, ![256, 128, 32, 32]⟩ : Shape).Idx → EReal) (w : (⟨2, ![8, 8]⟩ : Shape).Idx → EReal)
    (b : (⟨1, ![8]⟩ : Shape).Idx → EReal) : (⟨4, ![256, 128, 32, 32]⟩ : Shape).Idx → EReal :=
  fun i => entry x w b (i 0) (i 1) (i 2) (i 3)

/-- A position k < 128 of a row is a block number k / 8 < 16 and a place k % 8 < 8 inside the block. -/
def blockPlace : Fin 16 × Fin 8 ≃ Fin 128 where
  toFun pa := ⟨8 * pa.1.val + pa.2.val, by have := pa.1.isLt; have := pa.2.isLt; omega⟩
  invFun k := (⟨k.val / 8, by have := k.isLt; omega⟩, ⟨k.val % 8, Nat.mod_lt _ (by decide)⟩)
  left_inv pa := by
    apply Prod.ext <;> apply Fin.ext
    · show (8 * pa.1.val + pa.2.val) / 8 = pa.1.val
      have := pa.2.isLt; omega
    · show (8 * pa.1.val + pa.2.val) % 8 = pa.2.val
      have := pa.2.isLt; omega
  right_inv k := by
    apply Fin.ext
    show 8 * (k.val / 8) + k.val % 8 = k.val
    omega

/-- A row against a column of a block-diagonal matrix: of the 128 terms only the eight of diagonal block q are
    left. The matrix entry at row k is the indicator of "k lies in block q" times g at k's place in its block. -/
theorem sum_blockdiag (f : Fin 128 → EReal) (g : Fin 8 → EReal) (q : Fin 16) :
    ∑ k : Fin 128, f k * ((if k.val / 8 = q.val then (1 : EReal) else 0) * g ⟨k.val % 8, Nat.mod_lt _ (by decide)⟩)
      = ∑ a : Fin 8, f ⟨8 * q.val + a.val, by have := q.isLt; have := a.isLt; omega⟩ * g a := by
  rw [← Equiv.sum_comp blockPlace, Fintype.sum_prod_type, Finset.sum_eq_single q]
  · refine Finset.sum_congr rfl fun a _ => ?_
    have h1 : (blockPlace (q, a)).val / 8 = q.val := by
      show (8 * q.val + a.val) / 8 = q.val
      have := a.isLt; omega
    have h2 : (⟨(blockPlace (q, a)).val % 8, Nat.mod_lt _ (by decide)⟩ : Fin 8) = a :=
      Fin.ext (by show (8 * q.val + a.val) % 8 = a.val; have := a.isLt; omega)
    rw [if_pos h1, one_mul, h2]
    rfl
  · intro p _ hp
    refine Finset.sum_eq_zero fun a _ => ?_
    have h1 : ¬ (blockPlace (p, a)).val / 8 = q.val := by
      show ¬ (8 * p.val + a.val) / 8 = q.val
      have := a.isLt
      intro h
      exact hp (Fin.ext (by omega))
    rw [if_neg h1, zero_mul, mul_zero]
  · intro h
    exact absurd (Finset.mem_univ q) h

/-- Comparing the words of two numbers below 16 for equality gives the bit 1 exactly when the numbers agree
    (adding the zero word to the first changes nothing). -/
theorem eqBit (p q : Fin 16) :
    IntOp.cmpi .eq (IntOp.addi (BitVec.ofNat 32 p.val) 0#32) (BitVec.ofNat 32 q.val)
      = if p.val = q.val then 1#1 else 0#1 := by
  revert p q
  decide

end Cert.GroupLinear

end
-- ==== Proof.RefIsSpec.lean ====
/-
  The reference, read one operation at a time, is the group-wise affine map of GroupLinear.lean.

  The reference views the last axis of 32 as 4 groups of 8, contracts the eight entries of a group against a row of
  w, adds b along the same axis, and views the result back as an axis of 32. Position l of the last axis is group
  l / 8, place l % 8; both views keep row-major positions, so the group's entries are x[.., 8·(l / 8) + a] and the
  row of w and the entry of b are those at l % 8. What is left to check is that arithmetic of positions.
-/
import proofs.«128929_j15616501088522_2_alg».proof.Proof.Gen.ReferenceIdeal.Read
import proofs.«128929_j15616501088522_2_alg».proof.Proof.GroupLinear

noncomputable section

namespace Cert.ReferenceIdeal.RefSpec

open Cert.ReferenceIdeal Cert.ReferenceIdeal.Gen Cert.ReferenceIdeal.Read Idealize.ShloMosaic Idealize.ShloMosaic.ValueIdx
open Cert.GroupLinear

/-- The reference's result, entry by entry, is the group's eight entries against row l % 8 of w, plus b at l % 8. -/
theorem ref_eq (x : FVec Ideal S256x128x32x32 .f32) (w : FVec Ideal S8x8 .f32) (b : FVec Ideal S8 .f32) :
    val_main_v5 (F := Ideal) x w b = groupLinear x w b := by
  funext i
  obtain ⟨p, q, h, l, rfl⟩ : ∃ (p : Fin 256) (q : Fin 128) (h : Fin 32) (l : Fin 32), i = ix4 p q h l :=
    ⟨i 0, i 1, i 2, i 3, eq_ix4 i⟩
  have hp := p.isLt
  have hq := q.isLt
  have hh := h.isLt
  have hl := l.isLt
  rw [val_main_v5_apply, val_main_v4_apply, val_main_v1_apply, val_main_v3_apply, val_main_v2_apply]
  show (∑ a : Fin 8, val_main_v0 (F := Ideal) x (lidx_main_v1 (idx_main_v5 (ix4 p q h l)) a) * w (ridx_main_v1 (idx_main_v5 (ix4 p q h l)) a))
      + b (idx_main_v2 (idx_main_v3 (idx_main_v5 (ix4 p q h l)))) = entry x w b p q h l
  unfold entry
  congr 1
  · refine Finset.sum_congr rfl fun a _ => ?_
    have ha := a.isLt
    rw [val_main_v0_apply]
    congr 1
    · refine congrArg x (funext fun d => Fin.ext ?_)
      match d with
      | ⟨0, _⟩ => show (((((((p.val * 128 + q.val) * 32 + h.val) * 32 + l.val) / 131072 * 128 + (((p.val * 128 + q.val) * 32 + h.val) * 32 + l.val) / 1024 % 128) * 32 + (((p.val * 128 + q.val) * 32 + h.val) * 32 + l.val) / 32 % 32) * 4 + (((p.val * 128 + q.val) * 32 + h.val) * 32 + l.val) / 8 % 4) * 8 + a.val) / 131072 = p.val; omega
      | ⟨1, _⟩ => show (((((((p.val * 128 + q.val) * 32 + h.val) * 32 + l.val) / 131072 * 128 + (((p.val * 128 + q.val) * 32 + h.val) * 32 + l.val) / 1024 % 128) * 32 + (((p.val * 128 + q.val) * 32 + h.val) * 32 + l.val) / 32 % 32) * 4 + (((p.val * 128 + q.val) * 32 + h.val) * 32 + l.val) / 8 % 4) * 8 + a.val) / 1024 % 128 = q.val; omega
      | ⟨2, _⟩ => show (((((((p.val * 128 + q.val) * 32 + h.val) * 32 + l.val) / 131072 * 128 + (((p.val * 128 + q.val) * 32 + h.val) * 32 + l.val) / 1024 % 128) * 32 + (((p.val * 128 + q.val) * 32 + h.val) * 32 + l.val) / 32 % 32) * 4 + (((p.val * 128 + q.val) * 32 + h.val) * 32 + l.val) / 8 % 4) * 8 + a.val) / 32 % 32 = h.val; omega
      | ⟨3, _⟩ => show (((((((p.val * 128 + q.val) * 32 + h.val) * 32 + l.val) / 131072 * 128 + (((p.val * 128 + q.val) * 32 + h.val) * 32 + l.val) / 1024 % 128) * 32 + (((p.val * 128 + q.val) * 32 + h.val) * 32 + l.val) / 32 % 32) * 4 + (((p.val * 128 + q.val) * 32 + h.val) * 32 + l.val) / 8 % 4) * 8 + a.val) % 32 = 8 * (l.val / 8) + a.val; omega
    · refine congrArg w (funext fun d => Fin.ext ?_)
      match d with
      | ⟨0, _⟩ => show (((p.val * 128 + q.val) * 32 + h.val) * 32 + l.val) % 8 = l.val % 8; omega
      | ⟨1, _⟩ => rfl
  · refine congrArg b (funext fun d => Fin.ext ?_)
    match d with
    | ⟨0, _⟩ => show (((p.val * 128 + q.val) * 32 + h.val) * 32 + l.val) % 8 = l.val % 8; omega

end Cert.ReferenceIdeal.RefSpec

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.BlockProduct.lean ====
/-
  What the kernel body stores, read at one entry: a block of 16384 rows times the 128 × 128 matrix, plus the row of
  offsets repeated down the block. Entry (r, c) is Σ_k rows (r, k) · matrix (k, c) + offsets (0, c).
-/
import proofs.«128929_j15616501088522_2_alg».proof.Proof.Gen.KernelIdeal.Skeleton
import proofs.«128929_j15616501088522_2_alg».proof.Proof.LibPlainMatmul
import proofs.«128929_j15616501088522_2_alg».proof.Proof.LibColRowBroadcast
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx

/-- The body's stored value at (r, c), from the three blocks it loads. -/
theorem stored_apply (x0 : Vec Ideal S16384x128 .f32) (x1 : Vec Ideal S128x128 .f32) (x2 : Vec Ideal S1x128 .f32)
    (r : Fin 16384) (c : Fin 128) :
    k0_pay1 (F := Ideal) x0 x1 x2 (ix2 r c)
      = (∑ k : Fin 128, x0 (ix2 r k) * x1 (ix2 k c)) + x2 (ix2 (0 : Fin 1) c) := by
  unfold k0_pay1
  rw [shapeCast_self, shapeCast_self, shapeCast_self, addf_apply]
  congr 1
  · exact Cert.PlainMatmul.matmul_zero_apply 16384 128 128 none x0 x1 r c
  · exact Cert.ColRowBroadcast.rowBroadcast_apply x2 broadcasts_S1x128_S16384x128 r c

end Cert.KernelIdeal.BlockProduct

end
-- ==== Proof.Layouts.lean ====
/-
  The re-layings that stand between the arguments and the matrix product, each read at one entry, and the 0/1
  matrix of sixteen rows and columns read at one entry. Nothing here mentions a program: the witnesses that a
  re-laying is well formed are taken as hypotheses.

  * [256, 128, 32, 32] laid out as [262144, 128]: row r, column k is the entry whose row-major position is
    128·r + k — and the same re-laying backwards.
  * The Kronecker product of a 16 × 16 matrix E and an 8 × 8 matrix B, built as both are built on the host (E spread
    to [16, 1, 16, 1] then [16, 8, 16, 8], B to [1, 8, 1, 8] then [16, 8, 16, 8], multiplied entry by entry, laid
    out as [128, 128]): entry (k, c) is E (k / 8, c / 8) · B (k % 8, c % 8).
  * A transposed 8 × 8 matrix at (a, b) is the matrix at (b, a).
  * Eight numbers repeated sixteen times along a row of 128: column c holds number c % 8.
  * The matrix "row index = column index" turned into numbers is 1 on the diagonal and 0 off it.
-/
import Idealize.ShloMosaic.PureOps.Ideal
import Idealize.ShloMosaic.Lib.ValueIdx
import Idealize.ShloMosaic.Lib.Pipeline.Value
import proofs.«128929_j15616501088522_2_alg».proof.Proof.GroupLinear

noncomputable section

namespace Cert.GroupLinear

open Idealize.ShloMosaic Idealize.ShloMosaic.ValueIdx

/-- The four coordinates of row-major position n < 256·128·32·32. -/
abbrev pos4 (n : Nat) (hn : n < 33554432) : (⟨4, ![256, 128, 32, 32]⟩ : Shape).Idx :=
  ix4 ⟨n / 131072, by omega⟩ ⟨n / 1024 % 128, by omega⟩ ⟨n / 32 % 32, by omega⟩ ⟨n % 32, by omega⟩

/-- [256, 128, 32, 32] laid out as rows of 128: entry (r, k) is the entry at row-major position 128·r + k. -/
theorem rows128_apply {α : Type} (x : (⟨4, ![256, 128, 32, 32]⟩ : Shape).Idx → α)
    (hc : (⟨4, ![256, 128, 32, 32]⟩ : Shape).ShapeCasts ⟨2, ![262144, 128]⟩) (r : Fin 262144) (k : Fin 128) :
    shapeCast ⟨2, ![262144, 128]⟩ x hc (ix2 r k)
      = x (pos4 (r.val * 128 + k.val) (by have := r.isLt; have := k.isLt; omega)) := by
  refine shapeCast_apply x hc (ix2 r k) _ ?_
  rw [Shape.rowMajor_val_four, Shape.rowMajor_val_two]
  show (((r.val * 128 + k.val) / 131072 * 128 + (r.val * 128 + k.val) / 1024 % 128) * 32 + (r.val * 128 + k.val) / 32 % 32) * 32
      + (r.val * 128 + k.val) % 32 = r.val * 128 + k.val
  have := r.isLt; have := k.isLt
  omega

/-- Rows of 128 laid back out as [256, 128, 32, 32]: entry (p, q, h, l), at row-major position n, is the row entry
    (n / 128, n % 128). -/
theorem unrows128_apply {α : Type} (y : (⟨2, ![262144, 128]⟩ : Shape).Idx → α)
    (hc : (⟨2, ![262144, 128]⟩ : Shape).ShapeCasts ⟨4, ![256, 128, 32, 32]⟩) (p : Fin 256) (q : Fin 128) (h : Fin 32) (l : Fin 32) :
    shapeCast ⟨4, ![256, 128, 32, 32]⟩ y hc (ix4 p q h l)
      = y (ix2 ⟨(((p.val * 128 + q.val) * 32 + h.val) * 32 + l.val) / 128, by have := p.isLt; have := q.isLt; have := h.isLt; have := l.isLt; omega⟩
          ⟨(((p.val * 128 + q.val) * 32 + h.val) * 32 + l.val) % 128, Nat.mod_lt _ (by decide)⟩) := by
  refine shapeCast_apply y hc (ix4 p q h l) _ ?_
  rw [Shape.rowMajor_val_four, Shape.rowMajor_val_two]
  show (((p.val * 128 + q.val) * 32 + h.val) * 32 + l.val) / 128 * 128 + (((p.val * 128 + q.val) * 32 + h.val) * 32 + l.val) % 128
      = ((p.val * 128 + q.val) * 32 + h.val) * 32 + l.val
  omega

/-- The Kronecker product of E (16 × 16) and B (8 × 8) as the host builds it, at entry (k, c). -/
theorem kron_apply (E : FVec Ideal ⟨2, ![16, 16]⟩ .f32) (B : FVec Ideal ⟨2, ![8, 8]⟩ .f32)
    (h0 : (⟨2, ![16, 16]⟩ : Shape).BroadcastsInDim ⟨4, ![16, 1, 16, 1]⟩ ![0, 2])
    (h1 : (⟨2, ![8, 8]⟩ : Shape).BroadcastsInDim ⟨4, ![1, 8, 1, 8]⟩ ![1, 3])
    (h2 : (⟨4, ![16, 1, 16, 1]⟩ : Shape).BroadcastsInDim ⟨4, ![16, 8, 16, 8]⟩ ![0, 1, 2, 3])
    (h3 : (⟨4, ![1, 8, 1, 8]⟩ : Shape).BroadcastsInDim ⟨4, ![16, 8, 16, 8]⟩ ![0, 1, 2, 3])
    (hc : (⟨4, ![16, 8, 16, 8]⟩ : Shape).ShapeCasts ⟨2, ![128, 128]⟩) (k c : Fin 128) :
    shapeCast ⟨2, ![128, 128]⟩
        (mulf (broadcastInDim ⟨4, ![16, 8, 16, 8]⟩ ![0, 1, 2, 3] h2 (broadcastInDim ⟨4, ![16, 1, 16, 1]⟩ ![0, 2] h0 E))
          (broadcastInDim ⟨4, ![16, 8, 16, 8]⟩ ![0, 1, 2, 3] h3 (broadcastInDim ⟨4, ![1, 8, 1, 8]⟩ ![1, 3] h1 B))) hc (ix2 k c)
      = E (ix2 ⟨k.val / 8, by have := k.isLt; omega⟩ ⟨c.val / 8, by have := c.isLt; omega⟩)
        * B (ix2 ⟨k.val % 8, Nat.mod_lt _ (by decide)⟩ ⟨c.val % 8, Nat.mod_lt _ (by decide)⟩) := by
  have hk := k.isLt
  have hcc := c.isLt
  refine (shapeCast_apply _ hc (ix2 k c)
    (ix4 (⟨k.val / 8, by omega⟩ : Fin 16) (⟨k.val % 8, Nat.mod_lt _ (by decide)⟩ : Fin 8)
      (⟨c.val / 8, by omega⟩ : Fin 16) (⟨c.val % 8, Nat.mod_lt _ (by decide)⟩ : Fin 8)) ?_).trans ?_
  · rw [Shape.rowMajor_val_four, Shape.rowMajor_val_two]
    show ((k.val / 8 * 8 + k.val % 8) * 16 + c.val / 8) * 8 + c.val % 8 = k.val * 128 + c.val
    omega
  rw [mulf_apply]
  congr 1
  · refine (broadcastInDim_apply _ h2 _ _ (ix4 (⟨k.val / 8, by omega⟩ : Fin 16) (0 : Fin 1) (⟨c.val / 8, by omega⟩ : Fin 16) (0 : Fin 1)) ?_).trans ?_
    · intro a
      match a with
      | ⟨0, _⟩ => show k.val / 8 = if (16 : Nat) = 1 then 0 else k.val / 8; rw [if_neg (by decide)]
      | ⟨1, _⟩ => show 0 = if (1 : Nat) = 1 then 0 else k.val % 8; rw [if_pos rfl]
      | ⟨2, _⟩ => show c.val / 8 = if (16 : Nat) = 1 then 0 else c.val / 8; rw [if_neg (by decide)]
      | ⟨3, _⟩ => show 0 = if (1 : Nat) = 1 then 0 else c.val % 8; rw [if_pos rfl]
    · refine broadcastInDim_apply _ h0 E _ _ ?_
      intro a
      match a with
      | ⟨0, _⟩ => show k.val / 8 = if (16 : Nat) = 1 then 0 else k.val / 8; rw [if_neg (by decide)]
      | ⟨1, _⟩ => show c.val / 8 = if (16 : Nat) = 1 then 0 else c.val / 8; rw [if_neg (by decide)]
  · refine (broadcastInDim_apply _ h3 _ _ (ix4 (0 : Fin 1) (⟨k.val % 8, Nat.mod_lt _ (by decide)⟩ : Fin 8) (0 : Fin 1) (⟨c.val % 8, Nat.mod_lt _ (by decide)⟩ : Fin 8)) ?_).trans ?_
    · intro a
      match a with
      | ⟨0, _⟩ => show 0 = if (1 : Nat) = 1 then 0 else k.val / 8; rw [if_pos rfl]
      | ⟨1, _⟩ => show k.val % 8 = if (8 : Nat) = 1 then 0 else k.val % 8; rw [if_neg (by decide)]
      | ⟨2, _⟩ => show 0 = if (1 : Nat) = 1 then 0 else c.val / 8; rw [if_pos rfl]
      | ⟨3, _⟩ => show c.val % 8 = if (8 : Nat) = 1 then 0 else c.val % 8; rw [if_neg (by decide)]
    · refine broadcastInDim_apply _ h1 B _ _ ?_
      intro a
      match a with
      | ⟨0, _⟩ => show k.val % 8 = if (8 : Nat) = 1 then 0 else k.val % 8; rw [if_neg (by decide)]
      | ⟨1, _⟩ => show c.val % 8 = if (8 : Nat) = 1 then 0 else c.val % 8; rw [if_neg (by decide)]

/-- A transposed 8 × 8 matrix at (a, b) is the matrix at (b, a). -/
theorem transpose8_apply {α : Type} (w : (⟨2, ![8, 8]⟩ : Shape).Idx → α)
    (ht : (⟨2, ![8, 8]⟩ : Shape).Transposes [1, 0] ⟨2, ![8, 8]⟩) (a b : Fin 8) :
    transpose ⟨2, ![8, 8]⟩ [1, 0] w ht (ix2 a b) = w (ix2 b a) := by
  refine transpose_apply [1, 0] w ht (ix2 a b) (ix2 b a) ?_
  intro d
  match d with
  | ⟨0, _⟩ => rfl
  | ⟨1, _⟩ => rfl

/-- Eight numbers as a [1, 8] row, repeated down sixteen rows, read off row by row into 128 numbers, as a
    [1, 128] row: column c holds number c % 8. -/
theorem tile16_apply {α : Type} (b : (⟨1, ![8]⟩ : Shape).Idx → α)
    (h1 : (⟨1, ![8]⟩ : Shape).ShapeCasts ⟨2, ![1, 8]⟩)
    (hb : (⟨2, ![1, 8]⟩ : Shape).BroadcastsInDim ⟨2, ![16, 8]⟩ ![0, 1])
    (h2 : (⟨2, ![16, 8]⟩ : Shape).ShapeCasts ⟨1, ![128]⟩)
    (h3 : (⟨1, ![128]⟩ : Shape).ShapeCasts ⟨2, ![1, 128]⟩) (z : Fin 1) (c : Fin 128) :
    shapeCast ⟨2, ![1, 128]⟩ (shapeCast ⟨1, ![128]⟩ (broadcastInDim ⟨2, ![16, 8]⟩ ![0, 1] hb (shapeCast ⟨2, ![1, 8]⟩ b h1)) h2) h3 (ix2 z c)
      = b (ix1 ⟨c.val % 8, Nat.mod_lt _ (by decide)⟩) := by
  have hcc := c.isLt
  have hz : z.val = 0 := by have := z.isLt; omega
  refine (shapeCast_apply _ h3 (ix2 z c) (ix1 c) ?_).trans ?_
  · rw [Shape.rowMajor_val_one, Shape.rowMajor_val_two]
    show c.val = z.val * 128 + c.val
    omega
  refine (shapeCast_apply _ h2 (ix1 c) (ix2 (⟨c.val / 8, by omega⟩ : Fin 16) (⟨c.val % 8, Nat.mod_lt _ (by decide)⟩ : Fin 8)) ?_).trans ?_
  · rw [Shape.rowMajor_val_one, Shape.rowMajor_val_two]
    show c.val / 8 * 8 + c.val % 8 = c.val
    omega
  refine (broadcastInDim_apply _ hb _ _ (ix2 (0 : Fin 1) (⟨c.val % 8, Nat.mod_lt _ (by decide)⟩ : Fin 8)) ?_).trans ?_
  · intro a
    match a with
    | ⟨0, _⟩ => show 0 = if (1 : Nat) = 1 then 0 else c.val / 8; rw [if_pos rfl]
    | ⟨1, _⟩ => show c.val % 8 = if (8 : Nat) = 1 then 0 else c.val % 8; rw [if_neg (by decide)]
  refine shapeCast_apply b h1 _ (ix1 ⟨c.val % 8, Nat.mod_lt _ (by decide)⟩) ?_
  rw [Shape.rowMajor_val_one, Shape.rowMajor_val_two]
  show c.val % 8 = 0 * 8 + c.val % 8
  omega

/-- The matrix "row index = column index" (the row indices with the zero word added, compared with the column
    indices, the bit read as a number) is 1 on the diagonal and 0 off it. -/
theorem eye_apply (hb : (⟨0, ![]⟩ : Shape).BroadcastsInDim ⟨2, ![16, 16]⟩ ![]) (p q : Fin 16) :
    (uitofp .f32 (cmpi .eq (addi (iotaInDim ⟨2, ![16, 16]⟩ 32 0) (broadcastInDim ⟨2, ![16, 16]⟩ ![] hb (constantI ⟨0, ![]⟩ 32 0#32)))
        (iotaInDim ⟨2, ![16, 16]⟩ 32 1)) : FVec Ideal ⟨2, ![16, 16]⟩ .f32) (ix2 p q)
      = if p.val = q.val then (1 : EReal) else 0 := by
  show (((IntOp.cmpi .eq (IntOp.addi (BitVec.ofNat 32 p.val) 0#32) (BitVec.ofNat 32 q.val)).toNat : ℝ) : EReal) = _
  rw [eqBit]
  split <;> simp

end Cert.GroupLinear

end
-- ==== Proof.RegionArrays.lean ====
/-
  The three arrays the matrix product reads, as the host operations before it leave them, each read at one entry in
  terms of the arguments x, w, b.

  * The rows: x laid out as 262144 rows of 128, entry (r, k) the entry of x at row-major position 128·r + k.
  * The matrix: the Kronecker product of the 16 × 16 identity (built as "row index = column index", turned into
    numbers) with the transpose of w; entry (k, c) is [k / 8 = c / 8] · w (c % 8, k % 8).
  * The offsets: b repeated sixteen times along a row; column c holds b (c % 8).
-/
import proofs.«128929_j15616501088522_2_alg».proof.Proof.Gen.KernelIdeal.Frame
import proofs.«128929_j15616501088522_2_alg».proof.Proof.Layouts
import Idealize.ShloMosaic.Lib.StableHlo.Run
import Idealize.ShloMosaic.Lib.Pipeline.Value
import Idealize.ShloMosaic.PureOps.Ideal

noncomputable section

namespace Cert.KernelIdeal.RegionArrays

open Cert.KernelIdeal Cert.KernelIdeal.Gen Idealize.ShloMosaic Idealize.ShloMosaic.TcCoe Idealize.SL.Sem Idealize.ShloMosaic.StableHlo
open Idealize.ShloMosaic.ValueIdx Cert.GroupLinear

variable (m : (ℓ : Loc nD τ sig) → Buf (Elt Ideal) ℓ)

/-- The rows array as the product finds it. -/
def rowsArr (c : Dev nD) : S262144x128.Idx → EReal := V m c main_v0
/-- The matrix array as the product finds it. -/
def matrixArr (c : Dev nD) : S128x128.Idx → EReal := V m c main_v8
/-- The offsets array as the product finds it. -/
def offsetsArr (c : Dev nD) : S1x128.Idx → EReal := V m c main_v12

/-- The rows array is x laid out as rows of 128. -/
theorem rows_eq (c : Dev nD) :
    rowsArr m c
      = shapeCast S262144x128 (m ((c : Thread nD τ).loc main_arg0)) shapeCasts_S256x128x32x32_S262144x128 := by
  unfold rowsArr
  dsimp only [Gen.V, Gen.V0]
  simp only [Gen.hostOps0, Gen.hostOps0_1, Gen.hostOps0_2, List.flatten_cons, List.flatten_nil, List.append_nil, List.cons_append, List.nil_append]
  after_results
  rfl

/-- The matrix array is the Kronecker product of the identity pattern and the transpose of w. -/
theorem matrix_eq (c : Dev nD) :
    matrixArr m c
      = shapeCast S128x128
          (mulf (broadcastInDim S16x8x16x8 ![0, 1, 2, 3] bcast_S16x1x16x1_S16x8x16x8_0_1_2_3
              (broadcastInDim S16x1x16x1 ![0, 2] bcast_S16x16_S16x1x16x1_0_2
                (uitofp .f32 (cmpi .eq (addi (iotaInDim S16x16 32 0) (broadcastInDim S16x16 ![] bcast_S_S16x16 (constantI S_ 32 0#32)))
                  (iotaInDim S16x16 32 1)) : FVec Ideal S16x16 .f32)))
            (broadcastInDim S16x8x16x8 ![0, 1, 2, 3] bcast_S1x8x1x8_S16x8x16x8_0_1_2_3
              (broadcastInDim S1x8x1x8 ![1, 3] bcast_S8x8_S1x8x1x8_1_3
                (transpose S8x8 [1, 0] (m ((c : Thread nD τ).loc main_arg1)) transposes_S8x8_S8x8_1_0))))
          shapeCasts_S16x8x16x8_S128x128 := by
  unfold matrixArr
  dsimp only [Gen.V, Gen.V0]
  simp only [Gen.hostOps0, Gen.hostOps0_1, Gen.hostOps0_2, List.flatten_cons, List.flatten_nil, List.append_nil, List.cons_append, List.nil_append]
  after_results
  rfl

/-- The offsets array is b repeated sixteen times along a row. -/
theorem offsets_eq (c : Dev nD) :
    offsetsArr m c
      = shapeCast S1x128 (shapeCast S128 (broadcastInDim S16x8 ![0, 1] bcast_S1x8_S16x8_0_1
          (shapeCast S1x8 (m ((c : Thread nD τ).loc main_arg2)) shapeCasts_S8_S1x8)) shapeCasts_S16x8_S128) shapeCasts_S128_S1x128 := by
  unfold offsetsArr
  dsimp only [Gen.V, Gen.V0]
  simp only [Gen.hostOps0, Gen.hostOps0_1, Gen.hostOps0_2, List.flatten_cons, List.flatten_nil, List.append_nil, List.cons_append, List.nil_append]
  after_results
  rfl

/-- Entry (r, k) of the rows array. -/
theorem rows_apply (c : Dev nD) (r : Fin 262144) (k : Fin 128) :
    rowsArr m c (ix2 r k)
      = m ((c : Thread nD τ).loc main_arg0) (pos4 (r.val * 128 + k.val) (by have := r.isLt; have := k.isLt; omega)) := by
  rw [rows_eq]
  exact rows128_apply _ _ r k

/-- Entry (k, col) of the matrix array. -/
theorem matrix_apply (c : Dev nD) (k col : Fin 128) :
    matrixArr m c (ix2 k col)
      = (if k.val / 8 = col.val / 8 then (1 : EReal) else 0)
        * m ((c : Thread nD τ).loc main_arg1) (ix2 ⟨col.val % 8, Nat.mod_lt _ (by decide)⟩ ⟨k.val % 8, Nat.mod_lt _ (by decide)⟩) := by
  rw [matrix_eq]
  refine (kron_apply _ _ _ _ _ _ _ k col).trans ?_
  rw [eye_apply, transpose8_apply]

/-- Entry (0, col) of the offsets array. -/
theorem offsets_apply (c : Dev nD) (z : Fin 1) (col : Fin 128) :
    offsetsArr m c (ix2 z col)
      = m ((c : Thread nD τ).loc main_arg2) (ix1 ⟨col.val % 8, Nat.mod_lt _ (by decide)⟩) := by
  rw [offsets_eq]
  exact tile16_apply _ _ _ _ _ z col

end Cert.KernelIdeal.RegionArrays

end
-- ==== Proof.RegionResult.lean ====
/-
  The array the matrix product leaves, as one function of the three arrays it reads, and the result of the program:
  that array laid back out as [256, 128, 32, 32].

  The grid has 16 points; point t works on rows 16384·t … 16384·t + 16383 and on the whole matrix and the whole row
  of offsets, and writes back rows 16384·t … of the result. So what point t writes back is block t of ONE function
  of the whole arrays — entry (r, c) is Σ_k rows (r, k) · matrix (k, c) + offsets (0, c) — and the sixteen blocks
  tile the 262144 rows: the point that covers row r is r / 16384.
-/
import proofs.«128929_j15616501088522_2_alg».proof.Proof.Gen.KernelIdeal.Frame
import proofs.«128929_j15616501088522_2_alg».proof.Proof.BlockProduct
import proofs.«128929_j15616501088522_2_alg».proof.Proof.RegionArrays
import Idealize.ShloMosaic.Lib.StableHlo.Run
import Idealize.ShloMosaic.Lib.Pipeline.Value
import Idealize.ShloMosaic.PureOps.Ideal

set_option maxRecDepth 16384

noncomputable section

namespace Cert.KernelIdeal.RegionResult

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.KernelIdeal.RegionArrays

variable (m : (ℓ : Loc nD τ sig) → Buf (Elt Ideal) ℓ) (ρ : Dev nD → PrngReg)

/-- Entry (r, col) of the product: row r of the rows array against column col of the matrix, plus the offset of
    column col. -/
def rowEntry (c : Dev nD) (r : Fin 262144) (col : Fin 128) : EReal :=
  (∑ k : Fin 128, rowsArr m c (ix2 r k) * matrixArr m c (ix2 k col)) + offsetsArr m c (ix2 (0 : Fin 1) col)

/-- The whole product array. -/
def product (c : Dev nD) : S262144x128.Idx → EReal := fun j => rowEntry m c (j 0) (j 1)

theorem zeroOffsets : (![0, 0] : Fin 2 → Nat) = fun _ => 0 := funext fun a => by fin_cases a <;> rfl

/-- Where each window's block sits at point t: the rows and the result at block t of their first axis, the matrix
    and the offsets at their one block. Decided over the sixteen points. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every one of the sixteen row blocks is some point's. -/
theorem blockOnto : ∀ q0 : Fin 16, ∃ t : Fin cfg0.N, win0_3.index t = ![q0.val, 0] :=
  (by decide +kernel : ∀ q0 : Fin 16, ∃ t : Fin grid0.N, win0_3.index t = ![q0.val, 0])

theorem pointLt (t : Fin cfg0.N) : t.val < 16 := by
  have h : cfg0.N = 16 := N_0
  have := t.isLt
  omega

/-- Row r of point t's block of the rows array is row 16384·t + r of the array. -/
theorem rowsBlock_apply (c : Dev nD) (t : Fin cfg0.N) (r : Fin 16384) (k : Fin 128) :
    iblk m c 0 t (ix2 r k)
      = rowsArr m c (ix2 ⟨t.val * 16384 + r.val, by have := pointLt t; have := r.isLt; omega⟩ k) := by
  obtain ⟨e0, e1, -⟩ := blockIndices t
  show rowsArr m c (((cfg0.win 0).blk t).view.emb (ix2 r k)) = _
  refine congrArg (rowsArr m c) (funext fun a => Fin.ext ?_)
  match a with
  | ⟨0, _⟩ => show win0_0.index t (0 : Fin 2) * 16384 + 1 * r.val = t.val * 16384 + r.val; omega
  | ⟨1, _⟩ => show win0_0.index t (1 : Fin 2) * 128 + 1 * k.val = k.val; omega

/-- Point t's block of the matrix is the matrix. -/
theorem matrixBlock_apply (c : Dev nD) (t : Fin cfg0.N) (k col : Fin 128) :
    iblk m c 1 t (ix2 k col) = matrixArr m c (ix2 k col) := by
  obtain ⟨-, -, e0, e1, -⟩ := blockIndices t
  show matrixArr m c (((cfg0.win 1).blk t).view.emb (ix2 k col)) = _
  refine congrArg (matrixArr m c) (funext fun a => Fin.ext ?_)
  match a with
  | ⟨0, _⟩ => show win0_1.index t (0 : Fin 2) * 128 + 1 * k.val = k.val; omega
  | ⟨1, _⟩ => show win0_1.index t (1 : Fin 2) * 128 + 1 * col.val = col.val; omega

/-- Point t's block of the offsets is the offsets. -/
theorem offsetsBlock_apply (c : Dev nD) (t : Fin cfg0.N) (z : Fin 1) (col : Fin 128) :
    iblk m c 2 t (ix2 z col) = offsetsArr m c (ix2 z col) := by
  obtain ⟨-, -, -, -, e0, e1, -⟩ := blockIndices t
  show offsetsArr m c (((cfg0.win 2).blk t).view.emb (ix2 z col)) = _
  refine congrArg (offsetsArr m c) (funext fun a => Fin.ext ?_)
  match a with
  | ⟨0, _⟩ => show win0_2.index t (0 : Fin 2) * 1 + 1 * z.val = z.val; omega
  | ⟨1, _⟩ => show win0_2.index t (1 : Fin 2) * 128 + 1 * col.val = col.val; omega

/-- Entry (r, col) of point t's block of the result sits at row 16384·t + r of the result array. -/
theorem resultBlock_emb (t : Fin cfg0.N) (r : Fin 16384) (col : Fin 128) :
    ((cfg0.win 3).blk t).view.emb (ix2 r col)
      = (ix2 ⟨t.val * 16384 + r.val, by have := pointLt t; have := r.isLt; omega⟩ col : S262144x128.Idx) := by
  obtain ⟨-, -, -, -, -, -, e0, e1⟩ := blockIndices t
  refine funext fun a => Fin.ext ?_
  match a with
  | ⟨0, _⟩ => show win0_3.index t (0 : Fin 2) * 16384 + 1 * r.val = t.val * 16384 + r.val; omega
  | ⟨1, _⟩ => show win0_3.index t (1 : Fin 2) * 128 + 1 * col.val = col.val; omega

/-- What point t writes back is block t of the product array. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero zeroOffsets]
  simp only [View.ld_unit_zero (S := S16384x128) zeroOffsets, View.ld_unit_zero (S := S128x128) zeroOffsets,
    View.ld_unit_zero (S := S1x128) zeroOffsets]
  funext j
  obtain ⟨r, col, rfl⟩ : ∃ (r : Fin 16384) (col : Fin 128), j = ix2 r col := ⟨j 0, j 1, eq_ix2 j⟩
  show k0_pay1 (F := Ideal) (iblk m c 0 t) (iblk m c 1 t) (iblk m c 2 t) (ix2 r col)
    = product m c (((cfg0.win 3).blk t).view.emb (ix2 r col))
  rw [resultBlock_emb]
  refine (BlockProduct.stored_apply (iblk m c 0 t) (iblk m c 1 t) (iblk m c 2 t) r col).trans ?_
  show _ = rowEntry m c ⟨t.val * 16384 + r.val, _⟩ col
  unfold rowEntry
  rw [offsetsBlock_apply]
  refine congrArg (fun s => s + offsetsArr m c (ix2 (0 : Fin 1) col)) ?_
  refine Finset.sum_congr rfl fun k _ => ?_
  rw [rowsBlock_apply, matrixBlock_apply]

/-- An index of the result array is in point t's block iff each coordinate is in the block's range on its axis. -/
theorem mem_block (t : Fin cfg0.N) (i : S262144x128.Idx) :
    i ∈ ((cfg0.win 3).blk t).view.set
      ↔ ∀ a : Fin 2, win0_3.index t a * S16384x128.size a ≤ (i a).val ∧ (i a).val < win0_3.index t a * S16384x128.size a + S16384x128.size a := by
  show i ∈ ((View.whole main_v13).slice (win0_3.rect t)).set ↔ _
  rw [View.set_slice_whole, Rect.mem_set_unit]
  exact Iff.rfl

/-- The sixteen blocks cover the result array: row r is in block r / 16384. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ := blockOnto ⟨(i 0).val / 16384, by omega⟩
  have q0 : win0_3.index t (0 : Fin 2) = (i 0).val / 16384 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 16384 ≤ (i 0).val ∧ (i 0).val < win0_3.index t (0 : Fin 2) * 16384 + 16384; omega
  | ⟨1, _⟩ => show win0_3.index t (1 : Fin 2) * 128 ≤ (i 1).val ∧ (i 1).val < win0_3.index t (1 : Fin 2) * 128 + 128; omega

/-- After the sixteen points the result array is the product array. -/
theorem final (c : Dev nD) : (dats m 0 c).arrAt 3 cfg0.N = product m c :=
  (dats m 0 c).arrAt_eq_of_cover 3 (product m c) (fun t _ => flushed_eq m c t) covered

/-- The program's result: the product array laid back out as [256, 128, 32, 32]. -/
theorem result_eq (c : Dev nD) :
    Pipeline.afterTail₀ cfgs (dats m) 0 (V0 m) [hostOps1] c main_v14
      = shapeCast S256x128x32x32 (product m c) shapeCasts_S262144x128_S256x128x32x32 := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = product m c :=
    (Pipeline.withArrays_arr spec0 launch0.win.arr_inj c _ _ 3).trans (final m c)
  rw [e]
  rfl

end Cert.KernelIdeal.RegionResult

end
-- ==== Proof.RowsAreGroups.lean ====
/-
  Rows of 128 times the block-diagonal matrix, plus the repeated offsets, laid back out as [256, 128, 32, 32], is the
  group-wise affine map of GroupLinear.lean.

  Stated of any three arrays X (262144 × 128), W (128 × 128), B (1 × 128) of which one knows the entries: X (r, k) is x
  at row-major position 128·r + k; W (k, c) is [k / 8 = c / 8] · w (c % 8, k % 8); B (0, c) is b (c % 8). Position
  (p, q, h, l) of the result is row-major position n = ((128·p + q)·32 + h)·32 + l, that is row n / 128, column
  n % 128. In that column the matrix is zero outside rows 8·((n % 128) / 8) … + 7, so the sum over the 128 entries
  of the row keeps eight terms (GroupLinear.sum_blockdiag): the entries of x at positions n − l % 8 + a, which are the
  group of l, against w (l % 8, a).
-/
import proofs.«128929_j15616501088522_2_alg».proof.Proof.Layouts

noncomputable section

namespace Cert.GroupLinear

open Idealize.ShloMosaic Idealize.ShloMosaic.ValueIdx

theorem rows_are_groups (x : (⟨4, ![256, 128, 32, 32]⟩ : Shape).Idx → EReal) (w : (⟨2, ![8, 8]⟩ : Shape).Idx → EReal)
    (b : (⟨1, ![8]⟩ : Shape).Idx → EReal)
    (X : (⟨2, ![262144, 128]⟩ : Shape).Idx → EReal) (W : (⟨2, ![128, 128]⟩ : Shape).Idx → EReal) (B : (⟨2, ![1, 128]⟩ : Shape).Idx → EReal)
    (hX : ∀ (r : Fin 262144) (k : Fin 128), X (ix2 r k) = x (pos4 (r.val * 128 + k.val) (by have := r.isLt; have := k.isLt; omega)))
    (hW : ∀ (k col : Fin 128), W (ix2 k col) = (if k.val / 8 = col.val / 8 then (1 : EReal) else 0)
        * w (ix2 ⟨col.val % 8, Nat.mod_lt _ (by decide)⟩ ⟨k.val % 8, Nat.mod_lt _ (by decide)⟩))
    (hB : ∀ (z : Fin 1) (col : Fin 128), B (ix2 z col) = b (ix1 ⟨col.val % 8, Nat.mod_lt _ (by decide)⟩))
    (hc : (⟨2, ![262144, 128]⟩ : Shape).ShapeCasts ⟨4, ![256, 128, 32, 32]⟩) :
    shapeCast ⟨4, ![256, 128, 32, 32]⟩
        (fun j : (⟨2, ![262144, 128]⟩ : Shape).Idx => (∑ k : Fin 128, X (ix2 (j 0) k) * W (ix2 k (j 1))) + B (ix2 (0 : Fin 1) (j 1))) hc
      = groupLinear x w b := by
  funext i
  obtain ⟨p, q, h, l, rfl⟩ : ∃ (p : Fin 256) (q : Fin 128) (h : Fin 32) (l : Fin 32), i = ix4 p q h l :=
    ⟨i 0, i 1, i 2, i 3, eq_ix4 i⟩
  have hp := p.isLt
  have hq := q.isLt
  have hh := h.isLt
  have hl := l.isLt
  refine (unrows128_apply _ hc p q h l).trans ?_
  show (∑ k : Fin 128, X (ix2 (⟨(((p.val * 128 + q.val) * 32 + h.val) * 32 + l.val) / 128, by omega⟩ : Fin 262144) k) * W (ix2 k (⟨(((p.val * 128 + q.val) * 32 + h.val) * 32 + l.val) % 128, Nat.mod_lt _ (by decide)⟩ : Fin 128)))
      + B (ix2 (0 : Fin 1) (⟨(((p.val * 128 + q.val) * 32 + h.val) * 32 + l.val) % 128, Nat.mod_lt _ (by decide)⟩ : Fin 128)) = entry x w b p q h l
  rw [hB]
  simp only [hX, hW]
  have key := sum_blockdiag
    (fun k : Fin 128 => x (pos4 ((((p.val * 128 + q.val) * 32 + h.val) * 32 + l.val) / 128 * 128 + k.val) (by have := k.isLt; omega)))
    (fun a : Fin 8 => w (ix2 (⟨(((p.val * 128 + q.val) * 32 + h.val) * 32 + l.val) % 128 % 8, Nat.mod_lt _ (by decide)⟩ : Fin 8) a))
    (⟨(((p.val * 128 + q.val) * 32 + h.val) * 32 + l.val) % 128 / 8, by omega⟩ : Fin 16)
  refine (congrArg (fun s => s + b (ix1 (⟨(((p.val * 128 + q.val) * 32 + h.val) * 32 + l.val) % 128 % 8, Nat.mod_lt _ (by decide)⟩ : Fin 8))) key).trans ?_
  unfold entry
  show (∑ a : Fin 8, x (pos4 ((((p.val * 128 + q.val) * 32 + h.val) * 32 + l.val) / 128 * 128 + (8 * ((((p.val * 128 + q.val) * 32 + h.val) * 32 + l.val) % 128 / 8) + a.val)) (by have := a.isLt; omega)) * w (ix2 (⟨(((p.val * 128 + q.val) * 32 + h.val) * 32 + l.val) % 128 % 8, Nat.mod_lt _ (by decide)⟩ : Fin 8) a))
      + b (ix1 (⟨(((p.val * 128 + q.val) * 32 + h.val) * 32 + l.val) % 128 % 8, Nat.mod_lt _ (by decide)⟩ : Fin 8)) = _
  congr 1
  · refine Finset.sum_congr rfl fun a _ => ?_
    have ha := a.isLt
    congr 1
    · refine congrArg x (funext fun d => Fin.ext ?_)
      match d with
      | ⟨0, _⟩ => show ((((p.val * 128 + q.val) * 32 + h.val) * 32 + l.val) / 128 * 128 + (8 * ((((p.val * 128 + q.val) * 32 + h.val) * 32 + l.val) % 128 / 8) + a.val)) / 131072 = p.val; omega
      | ⟨1, _⟩ => show ((((p.val * 128 + q.val) * 32 + h.val) * 32 + l.val) / 128 * 128 + (8 * ((((p.val * 128 + q.val) * 32 + h.val) * 32 + l.val) % 128 / 8) + a.val)) / 1024 % 128 = q.val; omega
      | ⟨2, _⟩ => show ((((p.val * 128 + q.val) * 32 + h.val) * 32 + l.val) / 128 * 128 + (8 * ((((p.val * 128 + q.val) * 32 + h.val) * 32 + l.val) % 128 / 8) + a.val)) / 32 % 32 = h.val; omega
      | ⟨3, _⟩ => show ((((p.val * 128 + q.val) * 32 + h.val) * 32 + l.val) / 128 * 128 + (8 * ((((p.val * 128 + q.val) * 32 + h.val) * 32 + l.val) % 128 / 8) + a.val)) % 32 = 8 * (l.val / 8) + a.val; omega
    · refine congrArg w (funext fun d => Fin.ext ?_)
      match d with
      | ⟨0, _⟩ => show (((p.val * 128 + q.val) * 32 + h.val) * 32 + l.val) % 128 % 8 = l.val % 8; omega
      | ⟨1, _⟩ => rfl
  · refine congrArg b (funext fun d => Fin.ext ?_)
    match d with
    | ⟨0, _⟩ => show (((p.val * 128 + q.val) * 32 + h.val) * 32 + l.val) % 128 % 8 = l.val % 8; omega

end Cert.GroupLinear

end
-- ==== Proof.KernelRun.lean ====
/-
  The idealized kernel program's run, read: every weakly fair execution ends with the result array holding the
  group-wise affine map of the arguments (GroupLinear.lean), and the arguments unchanged.

  The product array (RegionResult.lean) is rows of 128 entries of x times the block-diagonal matrix plus the repeated
  offsets (RegionArrays.lean gives the three arrays entry by entry); laid back out as [256, 128, 32, 32] that is the
  group-wise map (RowsAreGroups.lean).
-/
import proofs.«128929_j15616501088522_2_alg».proof.Proof.RegionResult
import proofs.«128929_j15616501088522_2_alg».proof.Proof.RegionArrays
import proofs.«128929_j15616501088522_2_alg».proof.Proof.RowsAreGroups

noncomputable section

namespace Cert.KernelIdeal.KernelRun

open Cert.KernelIdeal Cert.KernelIdeal.Gen Idealize.ShloMosaic Idealize.ShloMosaic.TcCoe Idealize.SL.Sem
open Idealize.ShloMosaic.ValueIdx Cert.GroupLinear
open Cert.KernelIdeal.RegionArrays Cert.KernelIdeal.RegionResult

variable (m : (ℓ : Loc nD τ sig) → Buf (Elt Ideal) ℓ) (ρ : Dev nD → PrngReg)

/-- The product array laid back out is the group-wise map of the arguments. -/
theorem product_eq (c : Dev nD) :
    shapeCast S256x128x32x32 (product m c) shapeCasts_S262144x128_S256x128x32x32
      = groupLinear (m ((c.tc : Thread nD τ).loc main_arg0)) (m ((c.tc : Thread nD τ).loc main_arg1)) (m ((c.tc : Thread nD τ).loc main_arg2)) :=
  rows_are_groups _ _ _ (rowsArr m c) (matrixArr m c) (offsetsArr m c) (rows_apply m c) (matrix_apply m c) (offsets_apply m c)
    shapeCasts_S262144x128_S256x128x32x32

/-- The run, with the result array named. -/
theorem run : θ_run defs (onTc (τ := τ) (main (F := Ideal))) ⟨m, fun _ => 0, ρ⟩ fun r => ∀ c : Dev nD,
      r.2.mem ((c.tc : Thread nD τ).loc main_v14)
        = groupLinear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨(((h c).2 main_v14 (Pipeline.mem_restRefs_of main_v14 (by decide) (by decide))).trans (result_eq m c)).trans (product_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelRun

end
-- ==== Proof.lean ====
/-
  A per-group linear map over the last axis of x[256, 128, 32, 32]: every run of eight consecutive entries of the
  last axis goes through y = v · wᵀ + b with the same 8 × 8 matrix w and the same eight offsets b.

  The reference computes it group by group (a contraction of the eight entries of a group against a row of w). The
  kernel lays 128 consecutive entries of x side by side in a row — sixteen groups — and multiplies each block of
  16384 rows by ONE 128 × 128 matrix that carries sixteen copies of wᵀ down its diagonal and zeros elsewhere (the
  Kronecker product of the 16 × 16 identity with wᵀ), adding b repeated sixteen times along the row. On the extended
  reals the two agree entry by entry: a sum against a column of the block-diagonal matrix keeps only the eight terms
  of one diagonal block, because 0 · w = 0 and x · 0 = 0 for every extended real, and 1 · w = w; what is left is a
  regrouping of a finite sum. Nothing needs the inputs to be finite.

  Proof/GroupLinear.lean states the common function and the law of sums; Proof/RefIsSpec.lean reads the reference;
  Proof/Layouts.lean, Proof/RegionArrays.lean, Proof/BlockProduct.lean, Proof/RegionResult.lean,
  Proof/RowsAreGroups.lean and Proof/KernelRun.lean read the kernel program. No operation of the kernel is replaced
  for the reading on the extended reals: the idealized kernel is the kernel's own text, so nothing has to be shown
  to be preserved.
-/
import proofs.«128929_j15616501088522_2_alg».proof.Defs
import proofs.«128929_j15616501088522_2_alg».proof.Proof.Gen.Kernel
import proofs.«128929_j15616501088522_2_alg».proof.Proof.Gen.Kernel.Frame
import proofs.«128929_j15616501088522_2_alg».proof.Proof.Gen.KernelIdeal
import proofs.«128929_j15616501088522_2_alg».proof.Proof.Gen.KernelIdeal.Frame
import proofs.«128929_j15616501088522_2_alg».proof.Proof.Gen.ReferenceIdeal
import proofs.«128929_j15616501088522_2_alg».proof.Proof.Gen.ReferenceIdeal.Run
import proofs.«128929_j15616501088522_2_alg».proof.Proof.Gen.ReferenceIdeal.Read
import proofs.«128929_j15616501088522_2_alg».proof.Proof.Gen.Pre_finite_inputs
import proofs.«128929_j15616501088522_2_alg».proof.Proof.RefIsSpec
import proofs.«128929_j15616501088522_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on x, w and b both programs end with the group-wise map of them. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.GroupLinear.groupLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefSpec.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
